-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x16x16 : Shape := ⟨4, ![256, 64, 16, 16]⟩
abbrev S256x1024x64 : Shape := ⟨3, ![256, 1024, 64]⟩
abbrev S256x1024 : Shape := ⟨2, ![256, 1024]⟩
abbrev S_ : Shape := ⟨0, ![]⟩

class Facts : Prop where
  bcast_S_S256x64x16x16 : S_.BroadcastsInDim S256x64x16x16 (![] : Fin 0 → Fin S256x64x16x16.rank)
  reducesTo_S256x64x16x16_S_d0_1_2_3 : S256x64x16x16.ReducesTo [0, 1, 2, 3] S_
  h_S_ : 0 < S_.numel
  bcast_S_S256x1024x64 : S_.BroadcastsInDim S256x1024x64 (![] : Fin 0 → Fin S256x1024x64.rank)
  reducesTo_S256x1024x64_S_d0_1_2 : S256x1024x64.ReducesTo [0, 1, 2] S_
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S256x64x16x16 .f32) (main_arg1 : FVec F S256x1024x64 .f32) (main_arg2 : FVec F S256x1024 .f32) : IVec S_ 1 :=
  let main_v0 : FVec F S256x64x16x16 .f32 := Host.absf main_arg0
  let main_cst : FVec F S_ .f32 := constant S_ .f32 0x7F800000#32
  let main_v1 : FVec F S256x64x16x16 .f32 := broadcastInDim S256x64x16x16 ![] bcast_S_S256x64x16x16 main_cst
  let main_v2 : IVec S256x64x16x16 1 := cmpf .olt main_v0 main_v1
  let main_c : IVec S_ 1 := constantI S_ 1 1#1
  let main_v3 : IVec S_ 1 := (fun x v => Host.reduce IntOp.andi x v reducesTo_S256x64x16x16_S_d0_1_2_3 h_S_) main_v2 main_c
  let main_v4 : FVec F S256x1024x64 .f32 := Host.absf main_arg1
  let main_cst_0 : FVec F S_ .f32 := constant S_ .f32 0x7F800000#32
  let main_v5 : FVec F S256x1024x64 .f32 := broadcastInDim S256x1024x64 ![] bcast_S_S256x1024x64 main_cst_0
  let main_v6 : IVec S256x1024x64 1 := cmpf .olt main_v4 main_v5
  let main_c_1 : IVec S_ 1 := constantI S_ 1 1#1
  let main_v7 : IVec S_ 1 := (fun x v => Host.reduce IntOp.andi x v reducesTo_S256x1024x64_S_d0_1_2 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  main_v13
-- ==== Kernel.lean ====
abbrev S256x64x16x16 : Shape := ⟨4, ![256, 64, 16, 16]⟩
abbrev S256x1024x64 : Shape := ⟨3, ![256, 1024, 64]⟩
abbrev S256x1024 : Shape := ⟨2, ![256, 1024]⟩
abbrev S256x64x256 : Shape := ⟨3, ![256, 64, 256]⟩
abbrev S256x256x64 : Shape := ⟨3, ![256, 256, 64]⟩
abbrev S256x256x1024 : Shape := ⟨3, ![256, 256, 1024]⟩
abbrev S32x32x64 : Shape := ⟨3, ![32, 32, 64]⟩
abbrev S32x1024x64 : Shape := ⟨3, ![32, 1024, 64]⟩
abbrev S32x1024 : Shape := ⟨2, ![32, 1024]⟩
abbrev S32x32x1024 : Shape := ⟨3, ![32, 32, 1024]⟩
abbrev S32x1x1024 : Shape := ⟨3, ![32, 1, 1024]⟩
abbrev S16x16x256x64x4x4 : Shape := ⟨6, ![16, 16, 256, 64, 4, 4]⟩
abbrev S256x64x16x4x16x4 : Shape := ⟨6, ![256, 64, 16, 4, 16, 4]⟩
abbrev S256x64x64x64 : Shape := ⟨4, ![256, 64, 64, 64]⟩

abbrev nBuf : Space → Nat
  | .hbm => 9
  | .vmem => 8
  | .smem => 0
  | _ => 0

abbrev bufTy : (tb : Table) → Fin (tcTables nBuf tb) → BufTy
  | .hbm, ⟨0, _⟩ => ⟨S256x64x16x16, .f32⟩
  | .hbm, ⟨1, _⟩ => ⟨S256x1024x64, .f32⟩
  | .hbm, ⟨2, _⟩ => ⟨S256x1024, .f32⟩
  | .hbm, ⟨3, _⟩ => ⟨S256x64x256, .f32⟩
  | .hbm, ⟨4, _⟩ => ⟨S256x256x64, .f32⟩
  | .hbm, ⟨5, _⟩ => ⟨S256x256x1024, .f32⟩
  | .hbm, ⟨6, _⟩ => ⟨S16x16x256x64x4x4, .f32⟩
  | .hbm, ⟨7, _⟩ => ⟨S256x64x16x4x16x4, .f32⟩
  | .hbm, ⟨8, _⟩ => ⟨S256x64x64x64, .f32⟩
  | .local _ .vmem, ⟨0, _⟩ => ⟨S32x32x64, .f32⟩
  | .local _ .vmem, ⟨1, _⟩ => ⟨S32x32x64, .f32⟩
  | .local _ .vmem, ⟨2, _⟩ => ⟨S32x1024x64, .f32⟩
  | .local _ .vmem, ⟨3, _⟩ => ⟨S32x1024x64, .f32⟩
  | .local _ .vmem, ⟨4, _⟩ => ⟨S32x1024, .f32⟩
  | .local _ .vmem, ⟨5, _⟩ => ⟨S32x1024, .f32⟩
  | .local _ .vmem, ⟨6, _⟩ => ⟨S32x32x1024, .f32⟩
  | .local _ .vmem, ⟨7, _⟩ => ⟨S32x32x1024, .f32⟩
  | _, _ => ⟨S256x64x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S256x64x16x16_S256x64x256 : S256x64x16x16.ShapeCasts S256x64x256
  transposes_S256x64x256_S256x256x64_2_0_1 : S256x64x256.Transposes [2, 0, 1] S256x256x64
  inb_S32x32x64_S32x32x64_0_0_0 : ∀ a, (![0, 0, 0] : Fin 3 → Nat) a + S32x32x64.size a ≤ S32x32x64.size a
  h_S32x32x64 : 0 < S32x32x64.numel
  shapeCasts_S32x32x64_S32x32x64 : S32x32x64.ShapeCasts S32x32x64
  bitsLt_bf16_f32 : FTy.bits .bf16 < FTy.bits .f32
  inb_S32x1024x64_S32x1024x64_0_0_0 : ∀ a, (![0, 0, 0] : Fin 3 → Nat) a + S32x1024x64.size a ≤ S32x1024x64.size a
  h_S32x1024x64 : 0 < S32x1024x64.numel
  inb_S32x1024_S32x1024_0_0 : ∀ a, (![0, 0] : Fin 2 → Nat) a + S32x1024.size a ≤ S32x1024.size a
  h_S32x1024 : 0 < S32x1024.numel
  shapeCasts_S32x1024_S32x1x1024 : S32x1024.ShapeCasts S32x1x1024
  broadcasts_S32x1x1024_S32x32x1024 : S32x1x1024.Broadcasts S32x32x1024
  inb_S32x32x1024_S32x32x1024_0_0_0 : ∀ a, (![0, 0, 0] : Fin 3 → Nat) a + S32x32x1024.size a ≤ S32x32x1024.size a
  h_S32x32x1024 : 0 < S32x32x1024.numel
  shapeCasts_S256x256x1024_S16x16x256x64x4x4 : S256x256x1024.ShapeCasts S16x16x256x64x4x4
  transposes_S16x16x256x64x4x4_S256x64x16x4x16x4_2_3_0_4_1_5 : S16x16x256x64x4x4.Transposes [2, 3, 0, 4, 1, 5] S256x64x16x4x16x4
  shapeCasts_S256x64x16x4x16x4_S256x64x64x64 : S256x64x16x4x16x4.ShapeCasts S256x64x64x64
  dot_S32x32x64_S32x1024x64_S32x32x1024_2_2_1_1_0_0_wf : DotDims.WF S32x32x64 S32x1024x64 S32x32x1024 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x64.size a ≤ S256x256x64.size a
  hwx0_0 : ∀ i : grid0.Coords, EltTy.bits .f32 = 32 ∨ (Rect.block (s := S256x256x64) S32x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1024x64.size a ≤ S256x1024x64.size a
  hwx0_1 : ∀ i : grid0.Coords, EltTy.bits .f32 = 32 ∨ (Rect.block (s := S256x1024x64) S32x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1024.size a ≤ S256x1024.size a
  hwx0_2 : ∀ i : grid0.Coords, EltTy.bits .f32 = 32 ∨ (Rect.block (s := S256x1024) S32x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x32x1024.size a ≤ S256x256x1024.size a
  hwx0_3 : ∀ i : grid0.Coords, EltTy.bits .f32 = 32 ∨ (Rect.block (s := S256x256x1024) S32x32x1024.size (cc0_transform_3 i) (hinb0_3 i)).WholeWords (EltTy.packing .f32)

variable [Facts₀]

def dot_S32x32x64_S32x1024x64_S32x32x1024_2_2_1_1_0_0 : DotDims S32x32x64 S32x1024x64 S32x32x1024 where
  lhsContracting := [2]
  rhsContracting := [2]
  lhsNonContracting := [1]
  rhsNonContracting := [1]
  lhsBatch := [0]
  rhsBatch := [0]
  wf := dot_S32x32x64_S32x1024x64_S32x32x1024_2_2_1_1_0_0_wf

abbrev win0_0 : Pipeline.Window sig grid0 :=
  Pipeline.Window.ofSpec (Memref.whole main_v1) S32x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x32x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x64x16x16 : Shape := ⟨4, ![256, 64, 16, 16]⟩
abbrev S256x1024x64 : Shape := ⟨3, ![256, 1024, 64]⟩
abbrev S256x1024 : Shape := ⟨2, ![256, 1024]⟩
abbrev S256x64x256 : Shape := ⟨3, ![256, 64, 256]⟩
abbrev S256x256x64 : Shape := ⟨3, ![256, 256, 64]⟩
abbrev S256x256x1024 : Shape := ⟨3, ![256, 256, 1024]⟩
abbrev S256x1x1024 : Shape := ⟨3, ![256, 1, 1024]⟩
abbrev S16x16x256x64x4x4 : Shape := ⟨6, ![16, 16, 256, 64, 4, 4]⟩
abbrev S256x64x16x4x16x4 : Shape := ⟨6, ![256, 64, 16, 4, 16, 4]⟩
abbrev S256x64x64x64 : Shape := ⟨4, ![256, 64, 64, 64]⟩

abbrev nBuf : Space → Nat
  | .hbm => 12
  | .vmem => 0
  | .smem => 0
  | _ => 0

abbrev bufTy : (tb : Table) → Fin (tcTables nBuf tb) → BufTy
  | .hbm, ⟨0, _⟩ => ⟨S256x64x16x16, .f32⟩
  | .hbm, ⟨1, _⟩ => ⟨S256x1024x64, .f32⟩
  | .hbm, ⟨2, _⟩ => ⟨S256x1024, .f32⟩
  | .hbm, ⟨3, _⟩ => ⟨S256x64x256, .f32⟩
  | .hbm, ⟨4, _⟩ => ⟨S256x256x64, .f32⟩
  | .hbm, ⟨5, _⟩ => ⟨S256x256x1024, .f32⟩
  | .hbm, ⟨6, _⟩ => ⟨S256x1x1024, .f32⟩
  | .hbm, ⟨7, _⟩ => ⟨S256x256x1024, .f32⟩
  | .hbm, ⟨8, _⟩ => ⟨S256x256x1024, .f32⟩
  | .hbm, ⟨9, _⟩ => ⟨S16x16x256x64x4x4, .f32⟩
  | .hbm, ⟨10, _⟩ => ⟨S256x64x16x4x16x4, .f32⟩
  | .hbm, ⟨11, _⟩ => ⟨S256x64x64x64, .f32⟩
  | _, _ => ⟨S256x64x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  shapeCasts_S256x64x16x16_S256x64x256 : S256x64x16x16.ShapeCasts S256x64x256
  transposes_S256x64x256_S256x256x64_2_0_1 : S256x64x256.Transposes [2, 0, 1] S256x256x64
  bcast_S256x1024_S256x1x1024_0_2 : S256x1024.BroadcastsInDim S256x1x1024 (![0, 2] : Fin 2 → Fin S256x1x1024.rank)
  bcast_S256x1x1024_S256x256x1024_0_1_2 : S256x1x1024.BroadcastsInDim S256x256x1024 (![0, 1, 2] : Fin 3 → Fin S256x256x1024.rank)
  shapeCasts_S256x256x1024_S16x16x256x64x4x4 : S256x256x1024.ShapeCasts S16x16x256x64x4x4
  transposes_S16x16x256x64x4x4_S256x64x16x4x16x4_2_3_0_4_1_5 : S16x16x256x64x4x4.Transposes [2, 3, 0, 4, 1, 5] S256x64x16x4x16x4
  shapeCasts_S256x64x16x4x16x4_S256x64x64x64 : S256x64x16x4x16x4.ShapeCasts S256x64x64x64
  dot_S256x256x64_S256x1024x64_S256x256x1024_2_2_1_1_0_0_wf : DotDims.WF S256x256x64 S256x1024x64 S256x256x1024 [2] [2] [1] [1] [0] [0]

variable [Facts₀]

def dot_S256x256x64_S256x1024x64_S256x256x1024_2_2_1_1_0_0 : DotDims S256x256x64 S256x1024x64 S256x256x1024 where
  lhsContracting := [2]
  rhsContracting := [2]
  lhsNonContracting := [1]
  rhsNonContracting := [1]
  lhsBatch := [0]
  rhsBatch := [0]
  wf := dot_S256x256x64_S256x1024x64_S256x256x1024_2_2_1_1_0_0_wf

class Facts : Prop extends Facts₀ where

variable [Facts]
-- ==== Proof.PerPixelLinear.lean ====
/-
  The function both programs compute before their common re-layout: a separate affine map at every pixel.
  For a pixel `p`, a batch row `r` and an output feature `o`,

      y[p, r, o] = (∑ k, x[p, r, k] · w[p, o, k]) + b[p, o]

  over the extended reals: the row `x[p, r, ·]` against row `o` of pixel `p`'s own weight matrix, plus that
  pixel's bias. The extents are parameters, because the same function is read twice: on one block of the
  kernel's grid (32 pixels by 32 batch rows) and on the whole arrays (256 by 256). Only sums and products
  occur, so nothing here needs the entries to be finite.
-/
import Idealize.ShloMosaic.PureOps.Ideal
import Idealize.ShloMosaic.Lib.ValueIdx

noncomputable section

open scoped BigOperators

namespace Cert.PerPixelLinear

open Idealize.ShloMosaic Idealize.ShloMosaic.ValueIdx

/-- One entry: the contraction over the input features `k` at pixel `p`, plus the pixel's bias for feature `o`. -/
def cell {P B O T : Nat} (x : (⟨3, ![P, B, T]⟩ : Shape).Idx → EReal) (w : (⟨3, ![P, O, T]⟩ : Shape).Idx → EReal)
    (b : (⟨2, ![P, O]⟩ : Shape).Idx → EReal) (p : Fin P) (r : Fin B) (o : Fin O) : EReal :=
  (∑ k : Fin T, x (ix3 p r k) * w (ix3 p o k)) + b (ix2 p o)

/-- The whole array of entries, indexed `[pixel, batch row, output feature]`. -/
def apply {P B O T : Nat} (x : (⟨3, ![P, B, T]⟩ : Shape).Idx → EReal) (w : (⟨3, ![P, O, T]⟩ : Shape).Idx → EReal)
    (b : (⟨2, ![P, O]⟩ : Shape).Idx → EReal) : (⟨3, ![P, B, O]⟩ : Shape).Idx → EReal :=
  fun i => cell x w b (i 0) (i 1) (i 2)

/-- The array at an index given by its coordinates is the entry at those coordinates. -/
theorem apply_ix3 {P B O T : Nat} (x : (⟨3, ![P, B, T]⟩ : Shape).Idx → EReal) (w : (⟨3, ![P, O, T]⟩ : Shape).Idx → EReal)
    (b : (⟨2, ![P, O]⟩ : Shape).Idx → EReal) (p : Fin P) (r : Fin B) (o : Fin O) :
    apply x w b (ix3 p r o) = cell x w b p r o := rfl

/-- An entry depends only on the row of `x`, the row of `w` and the entry of `b` it reads: two triples of arrays, of any
    extents, that agree there (at possibly different pixel and batch-row coordinates) have the same entry. -/
theorem cell_congr {P B O T P' B' : Nat}
    (x : (⟨3, ![P, B, T]⟩ : Shape).Idx → EReal) (w : (⟨3, ![P, O, T]⟩ : Shape).Idx → EReal) (b : (⟨2, ![P, O]⟩ : Shape).Idx → EReal)
    (x' : (⟨3, ![P', B', T]⟩ : Shape).Idx → EReal) (w' : (⟨3, ![P', O, T]⟩ : Shape).Idx → EReal) (b' : (⟨2, ![P', O]⟩ : Shape).Idx → EReal)
    (p : Fin P) (r : Fin B) (o : Fin O) (p' : Fin P') (r' : Fin B')
    (hx : ∀ k : Fin T, x (ix3 p r k) = x' (ix3 p' r' k)) (hw : ∀ k : Fin T, w (ix3 p o k) = w' (ix3 p' o k))
    (hb : b (ix2 p o) = b' (ix2 p' o)) :
    cell x w b p r o = cell x' w' b' p' r' o := by
  unfold cell
  exact congrArg₂ (· + ·) (Finset.sum_congr rfl fun k _ => congrArg₂ (· * ·) (hx k) (hw k)) hb

end Cert.PerPixelLinear

end
-- ==== Proof.ReferenceStage.lean ====
/-
  The reference, up to its final re-layout, is the per-pixel affine map of the pixel-major input.
  Its `dot_general` contracts the feature axis with the pixel axis as a batch axis, so at `[p, r, o]` it is
  `∑ k, xp[p, r, k] · W[p, o, k]`; the bias is broadcast along the batch-row axis in two steps
  (`[256,1024] → [256,1,1024] → [256,256,1024]`), so at `[p, r, o]` it is `b[p, o]`; the sum of the two is
  one entry of `PerPixelLinear.apply`.
-/
import proofs.«122545_j25872882991784_2_alg».proof.Proof.Gen.ReferenceIdeal.Read
import proofs.«122545_j25872882991784_2_alg».proof.Proof.PerPixelLinear

noncomputable section

open scoped BigOperators

namespace Cert.ReferenceIdeal.Stage

open Cert.ReferenceIdeal Cert.ReferenceIdeal.Gen Cert.ReferenceIdeal.Read Idealize.ShloMosaic Idealize.ShloMosaic.TcCoe
open Idealize.ShloMosaic.ValueIdx

/-- The left operand of the contraction at `[p, r, o]` and feature `k` is read at `[p, r, k]`. -/
theorem lidx_eq (i : S256x256x1024.Idx) (k : Fin 64) : lidx_main_v2 i k = ix3 (i 0) (i 1) k :=
  funext fun a => by match a with | ⟨0, _⟩ => rfl | ⟨1, _⟩ => rfl | ⟨2, _⟩ => rfl

/-- The right operand is read at `[p, o, k]`: the pixel's own weight matrix, row `o`. -/
theorem ridx_eq (i : S256x256x1024.Idx) (k : Fin 64) : ridx_main_v2 i k = ix3 (i 0) (i 2) k :=
  funext fun a => by match a with | ⟨0, _⟩ => rfl | ⟨1, _⟩ => rfl | ⟨2, _⟩ => rfl

/-- The twice-broadcast bias at `[p, r, o]` is read at `[p, o]`. -/
theorem bidx_eq (i : S256x256x1024.Idx) : idx_main_v3 (idx_main_v4 i) = ix2 (i 0) (i 2) :=
  funext fun a => by match a with | ⟨0, _⟩ => rfl | ⟨1, _⟩ => rfl

/-- The stage before the re-layout, as one function of the pixel-major input, the weights and the bias. -/
theorem stage_eq (x0 : (⟨S256x64x16x16, .f32⟩ : BufTy).Contents (Elt Ideal)) (x1 : (⟨S256x1024x64, .f32⟩ : BufTy).Contents (Elt Ideal))
    (x2 : (⟨S256x1024, .f32⟩ : BufTy).Contents (Elt Ideal)) :
    val_main_v5 (F := Ideal) x0 x1 x2 = Cert.PerPixelLinear.apply (val_main_v1 (F := Ideal) x0) x1 x2 := by
  funext i
  rw [val_main_v5_apply, val_main_v2_apply, val_main_v4_apply, val_main_v3_apply]
  show (∑ k : Fin 64, val_main_v1 (F := Ideal) x0 (lidx_main_v2 i k) * x1 (ridx_main_v2 i k)) + x2 (idx_main_v3 (idx_main_v4 i))
    = (∑ k : Fin 64, val_main_v1 (F := Ideal) x0 (ix3 (i 0) (i 1) k) * x1 (ix3 (i 0) (i 2) k)) + x2 (ix2 (i 0) (i 2))
  rw [bidx_eq]
  exact congrArg (· + x2 (ix2 (i 0) (i 2))) (Finset.sum_congr rfl fun k _ =>
    congrArg₂ (· * ·) (congrArg (val_main_v1 (F := Ideal) x0) (lidx_eq i k)) (congrArg x1 (ridx_eq i k)))

/-- The reference's whole result: the re-layout (split the pixel and feature axes, permute, merge into the image) of the
    per-pixel affine map of the pixel-major input. The re-layout is carried along unopened. -/
theorem result_eq (x0 : (⟨S256x64x16x16, .f32⟩ : BufTy).Contents (Elt Ideal)) (x1 : (⟨S256x1024x64, .f32⟩ : BufTy).Contents (Elt Ideal))
    (x2 : (⟨S256x1024, .f32⟩ : BufTy).Contents (Elt Ideal)) :
    val_main_v8 (F := Ideal) x0 x1 x2
      = shapeCast S256x64x64x64
          (transpose S256x64x16x4x16x4 [2, 3, 0, 4, 1, 5]
            (shapeCast S16x16x256x64x4x4
              (Cert.PerPixelLinear.apply
                (transpose S256x256x64 [2, 0, 1] (shapeCast S256x64x256 x0 shapeCasts_S256x64x16x16_S256x64x256) transposes_S256x64x256_S256x256x64_2_0_1)
                x1 x2)
              shapeCasts_S256x256x1024_S16x16x256x64x4x4)
            transposes_S16x16x256x64x4x4_S256x64x16x4x16x4_2_3_0_4_1_5)
          shapeCasts_S256x64x16x4x16x4_S256x64x64x64 :=
  congrArg (fun y : (⟨S256x256x1024, .f32⟩ : BufTy).Contents (Elt Ideal) =>
      shapeCast S256x64x64x64
        (transpose S256x64x16x4x16x4 [2, 3, 0, 4, 1, 5] (shapeCast S16x16x256x64x4x4 y shapeCasts_S256x256x1024_S16x16x256x64x4x4)
          transposes_S16x16x256x64x4x4_S256x64x16x4x16x4_2_3_0_4_1_5)
        shapeCasts_S256x64x16x4x16x4_S256x64x64x64)
    (stage_eq x0 x1 x2)

end Cert.ReferenceIdeal.Stage

end
-- ==== Proof.KernelBlock.lean ====
/-
  What the kernel body computes on one block, entry by entry. The body multiplies each of the block's 32 pixels'
  `[32, 64]` slab of inputs by that pixel's `[1024, 64]` weight matrix, contracting the 64 features (the change to
  a narrower float format in between is the identity on extended reals, and the product accumulates into zero), then
  adds the pixel's bias row, broadcast along the 32 batch rows. At `[p, r, o]` that is
  `(∑ k, x[p, r, k] · w[p, o, k]) + b[p, o]`: one entry of the per-pixel affine map on the block's extents.
-/
import proofs.«122545_j25872882991784_2_alg».proof.Proof.Gen.KernelIdeal.Skeleton
import proofs.«122545_j25872882991784_2_alg».proof.Proof.PerPixelLinear
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.TcCoe
open Idealize.ShloMosaic.ValueIdx

/-! ## The operands of the block's batched product at an output index -/

/-- The left operand's pixel coordinate is the output's. -/
theorem lhs_pixel (j : S32x32x1024.Idx) (q : dot_S32x32x64_S32x1024x64_S32x32x1024_2_2_1_1_0_0.contr.Idx) : (dot_S32x32x64_S32x1024x64_S32x32x1024_2_2_1_1_0_0.lhsIdx j q 0).val = (j 0).val := by
  unfold DotDims.lhsIdx
  rw [dif_pos (show (0 : Fin S32x32x64.rank) ∈ dot_S32x32x64_S32x1024x64_S32x32x1024_2_2_1_1_0_0.lhsBatch by decide)]
  rfl
/-- Its batch-row coordinate is the output's. -/
theorem lhs_row (j : S32x32x1024.Idx) (q : dot_S32x32x64_S32x1024x64_S32x32x1024_2_2_1_1_0_0.contr.Idx) : (dot_S32x32x64_S32x1024x64_S32x32x1024_2_2_1_1_0_0.lhsIdx j q 1).val = (j 1).val := by
  unfold DotDims.lhsIdx
  rw [dif_neg (show ¬(1 : Fin S32x32x64.rank) ∈ dot_S32x32x64_S32x1024x64_S32x32x1024_2_2_1_1_0_0.lhsBatch by decide),
    dif_pos (show (1 : Fin S32x32x64.rank) ∈ dot_S32x32x64_S32x1024x64_S32x32x1024_2_2_1_1_0_0.lhsNonContracting by decide)]
  rfl
/-- Its feature coordinate is the contraction index. -/
theorem lhs_feature (j : S32x32x1024.Idx) (q : dot_S32x32x64_S32x1024x64_S32x32x1024_2_2_1_1_0_0.contr.Idx) : (dot_S32x32x64_S32x1024x64_S32x32x1024_2_2_1_1_0_0.lhsIdx j q 2).val = (q ⟨0, by decide⟩).val :=
  dot_S32x32x64_S32x1024x64_S32x32x1024_2_2_1_1_0_0.lhsIdx_val_of_single rfl j q
/-- The right operand's pixel coordinate is the output's. -/
theorem rhs_pixel (j : S32x32x1024.Idx) (q : dot_S32x32x64_S32x1024x64_S32x32x1024_2_2_1_1_0_0.contr.Idx) : (dot_S32x32x64_S32x1024x64_S32x32x1024_2_2_1_1_0_0.rhsIdx j q 0).val = (j 0).val := by
  unfold DotDims.rhsIdx
  rw [dif_pos (show (0 : Fin S32x1024x64.rank) ∈ dot_S32x32x64_S32x1024x64_S32x32x1024_2_2_1_1_0_0.rhsBatch by decide)]
  rfl
/-- Its row is the output feature. -/
theorem rhs_out (j : S32x32x1024.Idx) (q : dot_S32x32x64_S32x1024x64_S32x32x1024_2_2_1_1_0_0.contr.Idx) : (dot_S32x32x64_S32x1024x64_S32x32x1024_2_2_1_1_0_0.rhsIdx j q 1).val = (j 2).val := by
  unfold DotDims.rhsIdx
  rw [dif_neg (show ¬(1 : Fin S32x1024x64.rank) ∈ dot_S32x32x64_S32x1024x64_S32x32x1024_2_2_1_1_0_0.rhsBatch by decide),
    dif_pos (show (1 : Fin S32x1024x64.rank) ∈ dot_S32x32x64_S32x1024x64_S32x32x1024_2_2_1_1_0_0.rhsNonContracting by decide)]
  rfl
/-- Its column is the contraction index. -/
theorem rhs_feature (j : S32x32x1024.Idx) (q : dot_S32x32x64_S32x1024x64_S32x32x1024_2_2_1_1_0_0.contr.Idx) : (dot_S32x32x64_S32x1024x64_S32x32x1024_2_2_1_1_0_0.rhsIdx j q 2).val = (q ⟨0, by decide⟩).val :=
  dot_S32x32x64_S32x1024x64_S32x32x1024_2_2_1_1_0_0.rhsIdx_val_of_single rfl j q

/-- The left operand at output `[p, r, o]` and contraction index `k` is read at `[p, r, k]`. -/
theorem lhs_at (p r : Fin 32) (o : Fin 1024) (k : Fin 64) :
    dot_S32x32x64_S32x1024x64_S32x32x1024_2_2_1_1_0_0.lhsIdx (ix3 p r o) ((contrEquiv1 dot_S32x32x64_S32x1024x64_S32x32x1024_2_2_1_1_0_0 64 rfl rfl).symm k) = ix3 p r k := by
  have hk := contrEquiv1_symm_val dot_S32x32x64_S32x1024x64_S32x32x1024_2_2_1_1_0_0 64 rfl rfl k
  exact funext fun a => Fin.ext (by
    match a with
    | ⟨0, _⟩ => exact lhs_pixel _ _
    | ⟨1, _⟩ => exact lhs_row _ _
    | ⟨2, _⟩ => exact (lhs_feature _ _).trans hk)

/-- The right operand is read at `[p, o, k]`: pixel `p`'s weight matrix, row `o`. -/
theorem rhs_at (p r : Fin 32) (o : Fin 1024) (k : Fin 64) :
    dot_S32x32x64_S32x1024x64_S32x32x1024_2_2_1_1_0_0.rhsIdx (ix3 p r o) ((contrEquiv1 dot_S32x32x64_S32x1024x64_S32x32x1024_2_2_1_1_0_0 64 rfl rfl).symm k) = ix3 p o k := by
  have hk := contrEquiv1_symm_val dot_S32x32x64_S32x1024x64_S32x32x1024_2_2_1_1_0_0 64 rfl rfl k
  exact funext fun a => Fin.ext (by
    match a with
    | ⟨0, _⟩ => exact rhs_pixel _ _
    | ⟨1, _⟩ => exact rhs_out _ _
    | ⟨2, _⟩ => exact (rhs_feature _ _).trans hk)

/-- The batched product into a zero accumulator, at `[p, r, o]`: the sum over the 64 features. -/
theorem product_at (l : FVec Ideal S32x32x64 .bf16) (w : FVec Ideal S32x1024x64 .bf16) (p r : Fin 32) (o : Fin 1024) :
    matmul (F := Ideal) dot_S32x32x64_S32x1024x64_S32x32x1024_2_2_1_1_0_0 none l w (constant (F := Ideal) S32x32x1024 .f32 0x00000000#32) (ix3 p r o)
      = ∑ k : Fin 64, l (ix3 p r k) * w (ix3 p o k) := by
  refine (Ideal.matmul_constant_zero_apply dot_S32x32x64_S32x1024x64_S32x32x1024_2_2_1_1_0_0 none l w (ix3 p r o)).trans ?_
  rw [← Equiv.sum_comp (contrEquiv1 dot_S32x32x64_S32x1024x64_S32x32x1024_2_2_1_1_0_0 64 rfl rfl).symm]
  exact Finset.sum_congr rfl fun k _ =>
    congrArg₂ (· * ·) (congrArg l (lhs_at p r o k)) (congrArg w (rhs_at p r o k))

/-! ## The bias row, given a unit batch-row axis and broadcast along it -/

/-- `[32, 1024] → [32, 1, 1024] → [32, 32, 1024]` read at `[p, r, o]` is the bias at `[p, o]`, whatever `r`. -/
theorem bias_at (b : Vec Ideal S32x1024 .f32) (p r : Fin 32) (o : Fin 1024) :
    broadcastTo S32x32x1024 (shapeCast S32x1x1024 b shapeCasts_S32x1024_S32x1x1024) broadcasts_S32x1x1024_S32x32x1024 (ix3 p r o)
      = b (ix2 p o) := by
  refine (broadcastTo_apply _ broadcasts_S32x1x1024_S32x32x1024 (ix3 p r o) (ix3 p (0 : Fin 1) o) (fun a => ?_)).trans
    (shapeCast_apply b shapeCasts_S32x1024_S32x1x1024 (ix3 p (0 : Fin 1) o) (ix2 p o) ?_)
  · match a with
    | ⟨0, _⟩ => show p.val = if (32 : Nat) = 1 then 0 else p.val; rw [if_neg (by decide)]
    | ⟨1, _⟩ => show (0 : Nat) = if (1 : Nat) = 1 then 0 else r.val; rw [if_pos rfl]
    | ⟨2, _⟩ => show o.val = if (1024 : Nat) = 1 then 0 else o.val; rw [if_neg (by decide)]
  · rewrite [Shape.rowMajor_val_two, Shape.rowMajor_val_three]
    show p.val * 1024 + o.val = (p.val * 1 + 0) * 1024 + o.val
    omega

/-! ## The stored value -/

/-- What the body stores, at `[p, r, o]`, is the per-pixel affine map's entry there, of the three loaded blocks. -/
theorem stored_at (x : Vec Ideal S32x32x64 .f32) (w : Vec Ideal S32x1024x64 .f32) (b : Vec Ideal S32x1024 .f32)
    (p r : Fin 32) (o : Fin 1024) :
    k0_pay1 (F := Ideal) x w b (ix3 p r o) = Cert.PerPixelLinear.cell x w b p r o := by
  unfold k0_pay1
  show matmul (F := Ideal) dot_S32x32x64_S32x1024x64_S32x32x1024_2_2_1_1_0_0 none
        (truncf .bf16 (shapeCast S32x32x64 x shapeCasts_S32x32x64_S32x32x64) bitsLt_bf16_f32) (truncf .bf16 w bitsLt_bf16_f32)
        (constant (F := Ideal) S32x32x1024 .f32 0x00000000#32) (ix3 p r o)
      + broadcastTo S32x32x1024 (shapeCast S32x1x1024 b shapeCasts_S32x1024_S32x1x1024) broadcasts_S32x1x1024_S32x32x1024 (ix3 p r o)
      = (∑ k : Fin 64, x (ix3 p r k) * w (ix3 p o k)) + b (ix2 p o)
  refine congrArg₂ (· + ·) ((product_at _ _ p r o).trans ?_) (bias_at b p r o)
  exact Finset.sum_congr rfl fun k _ =>
    congrArg (· * w (ix3 p o k)) (congrFun (shapeCast_self x shapeCasts_S32x32x64_S32x32x64) (ix3 p r k))

end Cert.KernelIdeal.Block

end
-- ==== Proof.KernelArray.lean ====
/-
  From blocks to the array. The grid is 8 pixel tiles by 8 batch tiles; point `t` handles pixel tile `t / 8` and batch
  tile `t % 8`. There the input block is rows `[32·(t/8), 32·(t%8), 0]` onward of the pixel-major input, the weight and
  bias blocks are pixel tile `t / 8` of the weights and of the bias, and the written block is rows
  `[32·(t/8), 32·(t%8), 0]` onward of the result. The per-pixel affine map reads, for an entry of that output block,
  exactly the entries of the arrays that lie in those input blocks, so what point `t` writes back is block `t` of the map
  applied to the whole arrays; the 64 blocks tile the result, so the result array ends equal to it everywhere.
-/
import proofs.«122545_j25872882991784_2_alg».proof.Proof.Gen.KernelIdeal.Frame
import proofs.«122545_j25872882991784_2_alg».proof.Proof.KernelBlock
import Idealize.ShloMosaic.Lib.Pipeline.Value

set_option maxRecDepth 16384

noncomputable section

open scoped BigOperators

namespace Cert.KernelIdeal.Array

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The per-pixel affine map of the three arrays the region finds: the pixel-major input, the weights, the bias. -/
abbrev whole (c : Dev nD) : S256x256x1024.Idx → EReal :=
  Cert.PerPixelLinear.apply (V m c main_v1 : S256x256x64.Idx → EReal) (V m c main_arg1 : S256x1024x64.Idx → EReal)
    (V m c main_arg2 : S256x1024.Idx → EReal)

/-- Where each window's block sits at grid point `t`, decided over the 64 points: pixel tile `t / 8`, batch tile `t % 8`. -/
theorem tiles : ∀ t : Fin cfg0.N,
    win0_3.index t (0 : Fin 3) = t.val / 8 ∧ win0_3.index t (1 : Fin 3) = t.val % 8 ∧ win0_3.index t (2 : Fin 3) = 0
    ∧ win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = t.val / 8 ∧ win0_2.index t (1 : Fin 2) = 0 :=
  (by decide +kernel : ∀ t : Fin grid0.N, _)

/-- The input block at point `t`, entry `[p, r, k]`, is the pixel-major input at `[32·(t/8) + p, 32·(t%8) + r, k]`. -/
theorem input_block (c : Dev nD) (t : Fin cfg0.N) (p r : Fin 32) (k : Fin 64) (P : Fin 256) (R : Fin 256)
    (hP : P.val = t.val / 8 * 32 + p.val) (hR : R.val = t.val % 8 * 32 + r.val) :
    (iblk m c 0 t : Vec Ideal S32x32x64 .f32) (ix3 p r k) = (V m c main_v1 : S256x256x64.Idx → EReal) (ix3 P R k) := by
  obtain ⟨-, -, -, e0, e1, e2, -⟩ := tiles t
  show V m c main_v1 (((cfg0.win 0).blk t).view.emb (ix3 p r k)) = V m c main_v1 (ix3 P R k)
  refine congrArg (V m c main_v1) (funext fun a => Fin.ext ?_)
  match a with
  | ⟨0, _⟩ => show win0_0.index t (0 : Fin 3) * 32 + 1 * p.val = P.val; omega
  | ⟨1, _⟩ => show win0_0.index t (1 : Fin 3) * 32 + 1 * r.val = R.val; omega
  | ⟨2, _⟩ => show win0_0.index t (2 : Fin 3) * 64 + 1 * k.val = k.val; omega

/-- The weight block at point `t`, entry `[p, o, k]`, is the weights at `[32·(t/8) + p, o, k]`. -/
theorem weight_block (c : Dev nD) (t : Fin cfg0.N) (p : Fin 32) (o : Fin 1024) (k : Fin 64) (P : Fin 256)
    (hP : P.val = t.val / 8 * 32 + p.val) :
    (iblk m c 1 t : Vec Ideal S32x1024x64 .f32) (ix3 p o k) = (V m c main_arg1 : S256x1024x64.Idx → EReal) (ix3 P o k) := by
  obtain ⟨-, -, -, -, -, -, e0, e1, e2, -⟩ := tiles t
  show V m c main_arg1 (((cfg0.win 1).blk t).view.emb (ix3 p o k)) = V m c main_arg1 (ix3 P o k)
  refine congrArg (V m c main_arg1) (funext fun a => Fin.ext ?_)
  match a with
  | ⟨0, _⟩ => show win0_1.index t (0 : Fin 3) * 32 + 1 * p.val = P.val; omega
  | ⟨1, _⟩ => show win0_1.index t (1 : Fin 3) * 1024 + 1 * o.val = o.val; omega
  | ⟨2, _⟩ => show win0_1.index t (2 : Fin 3) * 64 + 1 * k.val = k.val; omega

/-- The bias block at point `t`, entry `[p, o]`, is the bias at `[32·(t/8) + p, o]`. -/
theorem bias_block (c : Dev nD) (t : Fin cfg0.N) (p : Fin 32) (o : Fin 1024) (P : Fin 256)
    (hP : P.val = t.val / 8 * 32 + p.val) :
    (iblk m c 2 t : Vec Ideal S32x1024 .f32) (ix2 p o) = (V m c main_arg2 : S256x1024.Idx → EReal) (ix2 P o) := by
  obtain ⟨-, -, -, -, -, -, -, -, -, e0, e1⟩ := tiles t
  show V m c main_arg2 (((cfg0.win 2).blk t).view.emb (ix2 p o)) = V m c main_arg2 (ix2 P o)
  refine congrArg (V m c main_arg2) (funext fun a => Fin.ext ?_)
  match a with
  | ⟨0, _⟩ => show win0_2.index t (0 : Fin 2) * 32 + 1 * p.val = P.val; omega
  | ⟨1, _⟩ => show win0_2.index t (1 : Fin 2) * 1024 + 1 * o.val = o.val; omega

/-- WHAT POINT `t` WRITES BACK is block `t` of the per-pixel affine map of the whole arrays. -/
theorem flushed_eq (c : Dev nD) (t : Fin cfg0.N) :
    (dats m 0 c).flushed 3 t = ((cfg0.win 3).blk t).view.read (Elt Ideal) (whole m c) := by
  show (cfg0.win 3).cut (grid0.coords t) ((dats m 0 c).after 3 t) = _
  rw [after0_3]
  unfold out0_3
  rw [View.canon_unit_zero zero3]
  simp only [View.ld_unit_zero (S := S32x32x64) zero3, View.ld_unit_zero (S := S32x1024x64) zero3,
    View.ld_unit_zero (S := S32x1024) zero2]
  obtain ⟨e0, e1, e2, -⟩ := tiles t
  funext j
  obtain ⟨p, r, o, rfl⟩ : ∃ (p : Fin 32) (r : Fin 32) (o : Fin 1024), j = ix3 p r o := ⟨j 0, j 1, j 2, eq_ix3 j⟩
  have hp : p.val < 32 := p.isLt
  have hr : r.val < 32 := r.isLt
  have ht : t.val < 64 := lt_of_lt_of_eq t.isLt N_0
  -- the array coordinates of the block's entry [p, r, o]
  let P : Fin 256 := ⟨t.val / 8 * 32 + p.val, by omega⟩
  let R : Fin 256 := ⟨t.val % 8 * 32 + r.val, by omega⟩
  have hemb : ((cfg0.win 3).blk t).view.emb (ix3 p r o) = ix3 P R o := funext fun a => Fin.ext (by
    match a with
    | ⟨0, _⟩ => show win0_3.index t (0 : Fin 3) * 32 + 1 * p.val = t.val / 8 * 32 + p.val; omega
    | ⟨1, _⟩ => show win0_3.index t (1 : Fin 3) * 32 + 1 * r.val = t.val % 8 * 32 + r.val; omega
    | ⟨2, _⟩ => show win0_3.index t (2 : Fin 3) * 1024 + 1 * o.val = o.val; omega)
  show k0_pay1 (F := Ideal) (iblk m c 0 t) (iblk m c 1 t) (iblk m c 2 t) (ix3 p r o)
    = whole m c (((cfg0.win 3).blk t).view.emb (ix3 p r o))
  rw [hemb]
  refine (Cert.KernelIdeal.Block.stored_at (iblk m c 0 t) (iblk m c 1 t) (iblk m c 2 t) p r o).trans ?_
  exact Cert.PerPixelLinear.cell_congr (iblk m c 0 t) (iblk m c 1 t) (iblk m c 2 t)
    (V m c main_v1 : S256x256x64.Idx → EReal) (V m c main_arg1 : S256x1024x64.Idx → EReal) (V m c main_arg2 : S256x1024.Idx → EReal)
    p r o P R (fun k => input_block m c t p r k P R rfl rfl) (fun k => weight_block m c t p o k P rfl) (bias_block m c t p o P rfl)

/-- An index of the result is in point `t`'s block iff each coordinate is in the block's range on its axis. -/
theorem mem_block (t : Fin cfg0.N) (i : S256x256x1024.Idx) :
    i ∈ ((cfg0.win 3).blk t).view.set ↔ ∀ a : Fin 3, win0_3.index t a * S32x32x1024.size a ≤ (i a).val ∧ (i a).val < win0_3.index t a * S32x32x1024.size a + S32x32x1024.size a := by
  show i ∈ ((View.whole main_v2).slice (win0_3.rect t)).set ↔ _
  rw [View.set_slice_whole, Rect.mem_set_unit]
  exact Iff.rfl

/-- Every index of the result lies in the block of the point with pixel tile `i₀ / 32` and batch tile `i₁ / 32`. -/
theorem covered (i : S256x256x1024.Idx) :
    ∃ t : Fin cfg0.N, (cfg0.win 3).flush t = true ∧ i ∈ ((cfg0.win 3).blk t).view.set := by
  have h0 : (i 0).val < 256 := (i 0).isLt
  have h1 : (i 1).val < 256 := (i 1).isLt
  have h2 : (i 2).val < 1024 := (i 2).isLt
  let t : Fin cfg0.N := ⟨(i 0).val / 32 * 8 + (i 1).val / 32, lt_of_lt_of_eq (by omega) N_0.symm⟩
  have htv : t.val = (i 0).val / 32 * 8 + (i 1).val / 32 := rfl
  obtain ⟨e0, e1, e2, -⟩ := tiles t
  refine ⟨t, flush0_3 t, ?_⟩
  rw [mem_block]
  intro a
  match a with
  | ⟨0, _⟩ => show win0_3.index t (0 : Fin 3) * 32 ≤ (i 0).val ∧ (i 0).val < win0_3.index t (0 : Fin 3) * 32 + 32; omega
  | ⟨1, _⟩ => show win0_3.index t (1 : Fin 3) * 32 ≤ (i 1).val ∧ (i 1).val < win0_3.index t (1 : Fin 3) * 32 + 32; omega
  | ⟨2, _⟩ => show win0_3.index t (2 : Fin 3) * 1024 ≤ (i 2).val ∧ (i 2).val < win0_3.index t (2 : Fin 3) * 1024 + 1024; omega

/-- THE RESULT ARRAY after the region: the per-pixel affine map of the arrays the region found. -/
theorem final (c : Dev nD) : (dats m 0 c).arrAt 3 cfg0.N = whole m c :=
  (dats m 0 c).arrAt_eq_of_cover 3 (whole m c) (fun t _ => flushed_eq m c t) (covered)

end Cert.KernelIdeal.Array

end
-- ==== Proof.KernelRun.lean ====
/-
  The kernel's whole run, read. Before the region two host operations make the pixel-major input: the two spatial axes
  of `x` are merged (`[256, 64, 16, 16] → [256, 64, 256]`) and the pixel axis is moved to the front
  (`→ [256, 256, 64]`, indexed `[pixel, batch, feature]`). The region leaves the per-pixel affine map of that array, the
  weights and the bias in the result array. After the region three host operations re-lay that array out as the image:
  the pixel axis splits into its two spatial coordinates and the output-feature axis into `(channel, 4, 4)`, the axes are
  permuted to `(batch, channel, row, 4, column, 4)`, and the sub-pixel axes merge into the spatial ones
  (`→ [256, 64, 64, 64]`). The re-layout is applied to the region's result as it stands and is never opened: the
  reference ends with the same three operations.
-/
import proofs.«122545_j25872882991784_2_alg».proof.Proof.KernelArray
import Idealize.ShloMosaic.Lib.StableHlo.Run
import Idealize.ShloMosaic.Lib.Pipeline.FrameSuffix

set_option maxRecDepth 16384

noncomputable section

namespace Cert.KernelIdeal.Run

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The pixel-major input: spatial axes merged, pixel axis first. -/
abbrev pixelMajor (x : (⟨S256x64x16x16, .f32⟩ : BufTy).Contents (Elt Ideal)) : (⟨S256x256x64, .f32⟩ : BufTy).Contents (Elt Ideal) :=
  transpose S256x256x64 [2, 0, 1] (shapeCast S256x64x256 x shapeCasts_S256x64x16x16_S256x64x256) transposes_S256x64x256_S256x256x64_2_0_1

/-- The re-layout of a `[pixel, batch, feature]` array as the `[batch, channel, row, column]` image. -/
abbrev toImage (y : (⟨S256x256x1024, .f32⟩ : BufTy).Contents (Elt Ideal)) : (⟨S256x64x64x64, .f32⟩ : BufTy).Contents (Elt Ideal) :=
  shapeCast S256x64x64x64
    (transpose S256x64x16x4x16x4 [2, 3, 0, 4, 1, 5] (shapeCast S16x16x256x64x4x4 y shapeCasts_S256x256x1024_S16x16x256x64x4x4)
      transposes_S16x16x256x64x4x4_S256x64x16x4x16x4_2_3_0_4_1_5)
    shapeCasts_S256x64x16x4x16x4_S256x64x64x64

/-- The array the region's first window reads is the pixel-major input. -/
theorem input_eq (c : Dev nD) : V m c main_v1 = pixelMajor (m ((c : Thread nD τ).loc main_arg0)) := by
  show StableHlo.after hostOps0 (fun b => m (c, b)) (Proc.devRef .tc main_v1) = _
  after_results
  rfl

/-- The result array after the region, in the launch contents of the three arguments. -/
theorem region_result (c : Dev nD) :
    (dats m 0 c).arrAt 3 cfg0.N = Cert.PerPixelLinear.apply (pixelMajor (m ((c : Thread nD τ).loc main_arg0)))
      (m ((c : Thread nD τ).loc main_arg1)) (m ((c : Thread nD τ).loc main_arg2)) := by
  rw [Cert.KernelIdeal.Array.final m c]
  show Cert.PerPixelLinear.apply (V m c main_v1) (V m c main_arg1) (V m c main_arg2) = _
  rw [input_eq m c, V_main_arg1 m c, V_main_arg2 m c]

/-- What the host operations after the region leave in the program's result: the re-layout of the region's result. -/
theorem tail_eq (c : Dev nD) :
    Pipeline.afterTail₀ cfgs (dats m) 0 (V0 m) [hostOps1] c main_v5
      = toImage (Cert.PerPixelLinear.apply (pixelMajor (m ((c : Thread nD τ).loc main_arg0)))
          (m ((c : Thread nD τ).loc main_arg1)) (m ((c : Thread nD τ).loc main_arg2))) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v2)
      = Cert.PerPixelLinear.apply (pixelMajor (m ((c : Thread nD τ).loc main_arg0)))
          (m ((c : Thread nD τ).loc main_arg1)) (m ((c : Thread nD τ).loc main_arg2)) :=
    (Pipeline.withArrays_arr spec0 launch0.win.arr_inj c _ _ 3).trans (region_result m c)
  rw [hw]
  rfl

/-- THE RUN, READ: every weakly fair execution terminates with the program's result at the re-layout of the per-pixel
    affine map of the pixel-major input, the weights and the bias, and the three arguments as launched. -/
theorem run : θ_run defs (onTc (τ := τ) (main (F := Ideal))) ⟨m, fun _ => 0, ρ⟩ fun r => ∀ c : Dev nD,
      r.2.mem ((c.tc : Thread nD τ).loc main_v5)
        = toImage (Cert.PerPixelLinear.apply (pixelMajor (m ((c.tc : Thread nD τ).loc main_arg0)))
            (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_eq m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c)))⟩)
    (run_main m ρ)

end Cert.KernelIdeal.Run

end
-- ==== Proof.lean ====
/-
  A pixel-shuffle upsampling layer with a separate linear map at every pixel, over the extended reals.

  The input `x : [256, 64, 16, 16]` (batch, channel, row, column) has 16 · 16 = 256 pixels; pixel `p` owns a weight matrix
  `W[p] : [1024, 64]` and a bias `b[p] : [1024]`. Both programs first bring `x` to pixel-major form `xp[p, r, k]`
  (pixel, batch row, channel), then compute

      y[p, r, o] = (∑ k, xp[p, r, k] · W[p, o, k]) + b[p, o],

  and finally re-lay `y` out as the `[256, 64, 64, 64]` image, each pixel's 1024 features becoming 64 channels of a
  4 × 4 patch. The kernel computes `y` on an 8 × 8 grid of blocks (32 pixels by 32 batch rows each), as a batched matrix
  product into a zero accumulator followed by the broadcast bias; the reference computes it with one batched contraction
  and a broadcast bias over the whole arrays. Both are the same sums of products term by term, so the two middle arrays
  are equal with no appeal to finiteness of the inputs, and the common re-layout is applied to equal arrays.

  The pieces: `PerPixelLinear` (the function `y`), `ReferenceStage` (the reference's middle array is `y`, and its
  result the re-layout of it), `KernelBlock` (the kernel body's stored value, entry by entry), `KernelArray` (the 64
  blocks tile the result array with `y`), `KernelRun` (the host operations around the region, and the run).
-/
import proofs.«122545_j25872882991784_2_alg».proof.Defs
import proofs.«122545_j25872882991784_2_alg».proof.Proof.Gen.Kernel
import proofs.«122545_j25872882991784_2_alg».proof.Proof.Gen.Kernel.Skeleton
import proofs.«122545_j25872882991784_2_alg».proof.Proof.Gen.Kernel.Launch
import proofs.«122545_j25872882991784_2_alg».proof.Proof.Gen.Kernel.Points
import proofs.«122545_j25872882991784_2_alg».proof.Proof.Gen.Kernel.Frame
import proofs.«122545_j25872882991784_2_alg».proof.Proof.Gen.KernelIdeal
import proofs.«122545_j25872882991784_2_alg».proof.Proof.Gen.KernelIdeal.Skeleton
import proofs.«122545_j25872882991784_2_alg».proof.Proof.Gen.KernelIdeal.Launch
import proofs.«122545_j25872882991784_2_alg».proof.Proof.Gen.KernelIdeal.Points
import proofs.«122545_j25872882991784_2_alg».proof.Proof.Gen.KernelIdeal.Frame
import proofs.«122545_j25872882991784_2_alg».proof.Proof.Gen.ReferenceIdeal
import proofs.«122545_j25872882991784_2_alg».proof.Proof.Gen.ReferenceIdeal.Run
import proofs.«122545_j25872882991784_2_alg».proof.Proof.Gen.ReferenceIdeal.Read
import proofs.«122545_j25872882991784_2_alg».proof.Proof.Gen.Pre_finite_inputs
import proofs.«122545_j25872882991784_2_alg».proof.Proof.ReferenceStage
import proofs.«122545_j25872882991784_2_alg».proof.Proof.KernelRun
import Idealize.ShloMosaic.Adequacy
import Idealize.ShloMosaic.Init

noncomputable section

namespace Cert.Proof

open Idealize.ShloMosaic Idealize.SL.Sem

/-- The word-level kernel runs, and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten in passing to the extended reals: nothing to preserve. -/
theorem preserves : Cert.preserves_Kernel_KernelIdeal := trivial

/-- From memories that agree on `x`, `W` and `b`, both programs end with the re-layout of the per-pixel affine map of the
    pixel-major input: the kernel by its run read block by block, the reference by its run read operation by operation. -/
theorem algebraic : Cert.algebraic_KernelIdeal_ReferenceIdeal := by
  intro m ρ m' ρ' _ hagree
  refine ⟨fun c => Cert.KernelIdeal.Run.toImage (Cert.PerPixelLinear.apply
      (Cert.KernelIdeal.Run.pixelMajor (m ((c.tc : Thread Cert.KernelIdeal.nD Cert.KernelIdeal.τ).loc Cert.KernelIdeal.main_arg0)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v8_eq _ _ _).trans (Cert.ReferenceIdeal.Stage.result_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
